-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  main_v8
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S8000x4 : Shape := ⟨2, ![8000, 4]⟩
abbrev S8000x3 : Shape := ⟨2, ![8000, 3]⟩
abbrev S8000x9 : Shape := ⟨2, ![8000, 9]⟩
abbrev S8000x1 : Shape := ⟨2, ![8000, 1]⟩
abbrev S8000 : Shape := ⟨1, ![8000]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S8000x4, .f32⟩
  | .local _ .vmem, ⟨1, _⟩ => ⟨S8000x4, .f32⟩
  | .local _ .vmem, ⟨2, _⟩ => ⟨S8000x3, .f32⟩
  | .local _ .vmem, ⟨3, _⟩ => ⟨S8000x3, .f32⟩
  | .local _ .vmem, ⟨4, _⟩ => ⟨S8000x9, .f32⟩
  | .local _ .vmem, ⟨5, _⟩ => ⟨S8000x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8000x4_S8000x4_0_0 : ∀ a, (![0, 0] : Fin 2 → Nat) a + S8000x4.size a ≤ S8000x4.size a
  h_S8000x4 : 0 < S8000x4.numel
  inb_S8000x3_S8000x3_0_0 : ∀ a, (![0, 0] : Fin 2 → Nat) a + S8000x3.size a ≤ S8000x3.size a
  h_S8000x3 : 0 < S8000x3.numel
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  slices_S8000x3_o0_0_S8000x1 : S8000x3.Slices ![0, 0] S8000x1
  slices_S8000x3_o0_1_S8000x1 : S8000x3.Slices ![0, 1] S8000x1
  slices_S8000x3_o0_2_S8000x1 : S8000x3.Slices ![0, 2] S8000x1
  shapeCasts_S8000_S8000x1 : S8000.ShapeCasts S8000x1
  concatenates_S8000x1_S8000x1_S8000x1_S8000x1_S8000x1_S8000x1_S8000x1_S8000x1_S8000x1_S8000x9_d1 : Shape.Concatenates [S8000x1, S8000x1, S8000x1, S8000x1, S8000x1, S8000x1, S8000x1, S8000x1, S8000x1] S8000x9 1
  inb_S8000x9_S8000x9_0_0 : ∀ a, (![0, 0] : Fin 2 → Nat) a + S8000x9.size a ≤ S8000x9.size a
  h_S8000x9 : 0 < S8000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S4000000x4.size a
  hwx0_0 : ∀ i : grid0.Coords, EltTy.bits .f32 = 32 ∨ (Rect.block (s := S4000000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S4000000x3.size a
  hwx0_1 : ∀ i : grid0.Coords, EltTy.bits .f32 = 32 ∨ (Rect.block (s := S4000000x3) S8000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x9.size a ≤ S4000000x9.size a
  hwx0_2 : ∀ i : grid0.Coords, EltTy.bits .f32 = 32 ∨ (Rect.block (s := S4000000x9) S8000x9.size (cc0_transform_2 i) (hinb0_2 i)).WholeWords (EltTy.packing .f32)

variable [Facts₀]

abbrev win0_0 : Pipeline.Window sig grid0 :=
  Pipeline.Window.ofSpec (Memref.whole main_arg0) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 115
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x1, .f32⟩
  | .hbm, ⟨3, _⟩ => ⟨S4000000, .f32⟩
  | .hbm, ⟨4, _⟩ => ⟨S4000000x1, .f32⟩
  | .hbm, ⟨5, _⟩ => ⟨S4000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S_, .f32⟩
  | .hbm, ⟨15, _⟩ => ⟨S4000000, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S_, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S_, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S_, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S_, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S_, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S4000000, .f32⟩
  | .hbm, ⟨83, _⟩ => ⟨S_, .f32⟩
  | .hbm, ⟨84, _⟩ => ⟨S4000000, .f32⟩
  | .hbm, ⟨85, _⟩ => ⟨S4000000, .f32⟩
  | .hbm, ⟨86, _⟩ => ⟨S4000000, .f32⟩
  | .hbm, ⟨87, _⟩ => ⟨S4000000, .f32⟩
  | .hbm, ⟨88, _⟩ => ⟨S_, .f32⟩
  | .hbm, ⟨89, _⟩ => ⟨S4000000, .f32⟩
  | .hbm, ⟨90, _⟩ => ⟨S4000000, .f32⟩
  | .hbm, ⟨91, _⟩ => ⟨S4000000, .f32⟩
  | .hbm, ⟨92, _⟩ => ⟨S_, .f32⟩
  | .hbm, ⟨93, _⟩ => ⟨S4000000, .f32⟩
  | .hbm, ⟨94, _⟩ => ⟨S4000000, .f32⟩
  | .hbm, ⟨95, _⟩ => ⟨S_, .f32⟩
  | .hbm, ⟨96, _⟩ => ⟨S4000000, .f32⟩
  | .hbm, ⟨97, _⟩ => ⟨S4000000, .f32⟩
  | .hbm, ⟨98, _⟩ => ⟨S4000000, .f32⟩
  | .hbm, ⟨99, _⟩ => ⟨S4000000, .f32⟩
  | .hbm, ⟨100, _⟩ => ⟨S4000000x1, .f32⟩
  | .hbm, ⟨101, _⟩ => ⟨S4000000x1, .f32⟩
  | .hbm, ⟨102, _⟩ => ⟨S4000000x1, .f32⟩
  | .hbm, ⟨103, _⟩ => ⟨S4000000x1, .f32⟩
  | .hbm, ⟨104, _⟩ => ⟨S4000000x1, .f32⟩
  | .hbm, ⟨105, _⟩ => ⟨S4000000x1, .f32⟩
  | .hbm, ⟨106, _⟩ => ⟨S4000000x1, .f32⟩
  | .hbm, ⟨107, _⟩ => ⟨S4000000x1, .f32⟩
  | .hbm, ⟨108, _⟩ => ⟨S4000000x1, .f32⟩
  | .hbm, ⟨109, _⟩ => ⟨S4000000x9, .f32⟩
  | .hbm, ⟨110, _⟩ => ⟨S4000000x3x3, .f32⟩
  | .hbm, ⟨111, _⟩ => ⟨S4000000x1x3, .f32⟩
  | .hbm, ⟨112, _⟩ => ⟨S4000000x3x3, .f32⟩
  | .hbm, ⟨113, _⟩ => ⟨S4000000x3x3, .f32⟩
  | .hbm, ⟨114, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_12 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_13 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_14 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_17 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_18 : Ref sig .tc := ⟨.hbm, 92, rfl⟩
abbrev main_v71 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]

class Facts₀ : Prop where
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovSpec.lean ====
/-
  The covariance of a scaled rotation, entry by entry, on the extended reals.

  For a quaternion (w, x, y, z) — not normalised — and scales (s0, s1, s2) the matrix M = R · diag(s) has entries
  M i k = R i k * s k, with R the usual rotation entries written with the f32 words of 1 and 2, and the covariance is
  M · Mᵀ, entry (i, j) = Σ_k M i k * M j k.  One program computes all nine entries as that sum; the other computes the
  six entries on and above the diagonal as (M i 0 * M j 0 + M i 1 * M j 1) + M i 2 * M j 2 and lays the three below the
  diagonal out as copies of their mirror images.  The two agree on every extended real: a sum over three indices IS
  that grouping, and the mirrored entries differ only by the order of the factors in each product.  Nothing is
  cancelled or distributed, so infinite entries are no exception and finiteness is never used.
-/
import Idealize.ShloMosaic.PureOps.Ideal
import Idealize.ShloMosaic.Lib.ValueIdx
import Idealize.ShloMosaic.Lib.Pipeline.Value

noncomputable section

namespace Cert.CovSpec

open Idealize.ShloMosaic Idealize.ShloMosaic.ValueIdx

/-- The f32 words of 2 and 1 as extended reals.  Both programs carry the same words, so they are never evaluated. -/
abbrev two : EReal := Ideal.ofBits .f32 0x40000000#32
abbrev one : EReal := Ideal.ofBits .f32 0x3F800000#32

/-- Entry (i, k) of the rotation matrix of the quaternion (w, x, y, z), each product grouped as (2 · a) · b. -/
def rot (w x y z : EReal) : Fin 3 → Fin 3 → EReal :=
  ![![(one - two * y * y) - two * z * z, two * x * y - two * w * z, two * x * z + two * w * y],
    ![two * x * y + two * w * z, (one - two * x * x) - two * z * z, two * y * z - two * w * x],
    ![two * x * z - two * w * y, two * y * z + two * w * x, (one - two * x * x) - two * y * y]]

/-- M = R · diag(s): column k of the rotation scaled by s k. -/
def scaled (w x y z : EReal) (s : Fin 3 → EReal) (i k : Fin 3) : EReal := rot w x y z i k * s k

/-- Entry (i, j) of M · Mᵀ. -/
def gram (M : Fin 3 → Fin 3 → EReal) (i j : Fin 3) : EReal := ∑ k : Fin 3, M i k * M j k

/-- The same nine entries in row-major order, the six on and above the diagonal each as a left-grouped sum of three
    products and the three below the diagonal as copies of their mirror images. -/
def upper (M : Fin 3 → Fin 3 → EReal) : Fin 9 → EReal :=
  ![M 0 0 * M 0 0 + M 0 1 * M 0 1 + M 0 2 * M 0 2,
    M 0 0 * M 1 0 + M 0 1 * M 1 1 + M 0 2 * M 1 2,
    M 0 0 * M 2 0 + M 0 1 * M 2 1 + M 0 2 * M 2 2,
    M 0 0 * M 1 0 + M 0 1 * M 1 1 + M 0 2 * M 1 2,
    M 1 0 * M 1 0 + M 1 1 * M 1 1 + M 1 2 * M 1 2,
    M 1 0 * M 2 0 + M 1 1 * M 2 1 + M 1 2 * M 2 2,
    M 0 0 * M 2 0 + M 0 1 * M 2 1 + M 0 2 * M 2 2,
    M 1 0 * M 2 0 + M 1 1 * M 2 1 + M 1 2 * M 2 2,
    M 2 0 * M 2 0 + M 2 1 * M 2 1 + M 2 2 * M 2 2]

/-- Position of entry (i, j) of a 3 × 3 matrix in row-major order. -/
abbrev cell (i j : Fin 3) : Fin 9 := ⟨3 * i.val + j.val, by have := i.isLt; have := j.isLt; omega⟩

/-- The law joining the two programs: the row-major list of upper entries and their mirrors IS M · Mᵀ.  On and above
    the diagonal the two sides are the same expression; below it they differ by commuting each product. -/
theorem upper_cell (M : Fin 3 → Fin 3 → EReal) (i j : Fin 3) : upper M (cell i j) = gram M i j := by
  unfold gram
  rw [Fin.sum_univ_three]
  fin_cases i <;> fin_cases j
  · rfl
  · rfl
  · rfl
  · show M 0 0 * M 1 0 + M 0 1 * M 1 1 + M 0 2 * M 1 2 = M 1 0 * M 0 0 + M 1 1 * M 0 1 + M 1 2 * M 0 2
    rw [mul_comm (M 0 0), mul_comm (M 0 1), mul_comm (M 0 2)]
  · rfl
  · rfl
  · show M 0 0 * M 2 0 + M 0 1 * M 2 1 + M 0 2 * M 2 2 = M 2 0 * M 0 0 + M 2 1 * M 0 1 + M 2 2 * M 0 2
    rw [mul_comm (M 0 0), mul_comm (M 0 1), mul_comm (M 0 2)]
  · show M 1 0 * M 2 0 + M 1 1 * M 2 1 + M 1 2 * M 2 2 = M 2 0 * M 1 0 + M 2 1 * M 1 1 + M 2 2 * M 1 2
    rw [mul_comm (M 1 0), mul_comm (M 1 1), mul_comm (M 1 2)]
  · rfl

/-! ## Whole arrays: n gaussians, quaternions [n, 4], scales [n, 3] -/

variable {n : Nat}

/-- The scaled rotation of gaussian r, read off row r of the two arrays. -/
def mat (q : (⟨2, ![n, 4]⟩ : Shape).Idx → EReal) (s : (⟨2, ![n, 3]⟩ : Shape).Idx → EReal) (r : Fin n) : Fin 3 → Fin 3 → EReal :=
  scaled (q (ix2 r (0 : Fin 4))) (q (ix2 r (1 : Fin 4))) (q (ix2 r (2 : Fin 4))) (q (ix2 r (3 : Fin 4))) (fun k => s (ix2 r k))

/-- All covariances as an [n, 3, 3] array: entry (r, i, j) is (M_r · M_rᵀ) i j. -/
def cov (q : (⟨2, ![n, 4]⟩ : Shape).Idx → EReal) (s : (⟨2, ![n, 3]⟩ : Shape).Idx → EReal) : (⟨3, ![n, 3, 3]⟩ : Shape).Idx → EReal :=
  fun j => gram (mat q s (j 0)) (j 1) (j 2)

/-- The same numbers as an [n, 9] array, nine columns per gaussian in row-major order, upper entries mirrored. -/
def covFlat (q : (⟨2, ![n, 4]⟩ : Shape).Idx → EReal) (s : (⟨2, ![n, 3]⟩ : Shape).Idx → EReal) : (⟨2, ![n, 9]⟩ : Shape).Idx → EReal :=
  fun j => upper (mat q s (j 0)) (j 1)

theorem cov_ix3 (q : (⟨2, ![n, 4]⟩ : Shape).Idx → EReal) (s : (⟨2, ![n, 3]⟩ : Shape).Idx → EReal) (r : Fin n) (i j : Fin 3) :
    cov q s (ix3 r i j) = gram (mat q s r) i j := rfl

theorem covFlat_ix2 (q : (⟨2, ![n, 4]⟩ : Shape).Idx → EReal) (s : (⟨2, ![n, 3]⟩ : Shape).Idx → EReal) (r : Fin n) (c : Fin 9) :
    covFlat q s (ix2 r c) = upper (mat q s r) c := rfl

/-- Splitting the nine columns of the [n, 9] array into 3 × 3 gives the [n, 3, 3] array: entry (r, i, j) of the
    reshaped array is column 3 i + j of row r, which the law above identifies. -/
theorem reshape_covFlat (q : (⟨2, ![n, 4]⟩ : Shape).Idx → EReal) (s : (⟨2, ![n, 3]⟩ : Shape).Idx → EReal)
    (h : (⟨2, ![n, 9]⟩ : Shape).ShapeCasts ⟨3, ![n, 3, 3]⟩) :
    shapeCast ⟨3, ![n, 3, 3]⟩ (covFlat q s) h = cov q s := by
  funext j
  obtain ⟨r, i, k, rfl⟩ : ∃ (r : Fin n) (i k : Fin 3), j = ix3 r i k := ⟨j 0, j 1, j 2, eq_ix3 j⟩
  refine (shapeCast_apply (covFlat q s) h (ix3 r i k) (ix2 r (cell i k)) ?_).trans ?_
  · rw [Shape.rowMajor_val_two, Shape.rowMajor_val_three]
    show r.val * 9 + (3 * i.val + k.val) = (r.val * 3 + i.val) * 3 + k.val
    omega
  · rw [covFlat_ix2, cov_ix3]
    exact upper_cell _ i k

end Cert.CovSpec

end
-- ==== Proof.LibStackCols.lean ====
/-
  Columns of a matrix read at an entry, generic in the number of rows n.

  * `stack9_apply`: nine [n, 1] columns joined along axis 1 into an [n, 9] matrix; entry (r, c) is column c at (r, 0).
    `stack9_col0` … `stack9_col8` are the same at each literal column, with no lookup left in the statement.
  * `column_apply`: column o of an [n, k] matrix, sliced out as [n, 1] and cast to a vector [n]; entry r is the
    matrix at (r, o).
  * `asColumn_apply`: a vector [n] cast to a column [n, 1]; entry (r, 0) is the vector at r.
  * `columnBcast_apply`: a vector [n] laid out as a column [n, 1] by broadcast_in_dim over axis 0; the same.
  Library imports only.
-/
import Idealize.ShloMosaic.Lib.ValueIdx
import Idealize.ShloMosaic.Lib.Pipeline.Value

namespace Cert.LibStackCols

open Idealize.ShloMosaic Idealize.ShloMosaic.ValueIdx

variable {α : Type} {n : Nat}

/-- Nine [n, 1] columns joined along axis 1: entry (r, c) of the [n, 9] result is column c at (r, 0).  Every piece has
    extent one along the joined axis, so the piece a position falls in is the position itself. -/
theorem stack9_apply (p0 p1 p2 p3 p4 p5 p6 p7 p8 : (⟨2, ![n, 1]⟩ : Shape).Idx → α)
    (h : Shape.Concatenates (([⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] : List ((s : Shape) × (s.Idx → α))).map (·.1))
      ⟨2, ![n, 9]⟩ 1)
    (r : Fin n) (c : Fin 9) :
    concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r c)
      = (![p0, p1, p2, p3, p4, p5, p6, p7, p8] c) (ix2 r (0 : Fin 1)) := by
  refine concatenate_ofFn_unit_apply (t := ⟨2, ![n, 9]⟩) (s₁ := ⟨2, ![n, 1]⟩) (1 : Fin 2)
    ![p0, p1, p2, p3, p4, p5, p6, p7, p8] h rfl rfl (ix2 r c) c rfl (ix2 r (0 : Fin 1)) ?_
  intro b hb
  match b with
  | ⟨0, _⟩ => rfl
  | ⟨1, _⟩ => exact absurd rfl hb

/-! ### The same, column by column

At a literal column the lookup in the list of pieces is decided, which leaves a statement with no lookup in it: the
form to chain with `Eq.trans` when the pieces are long expressions. -/

section Columns

variable (p0 p1 p2 p3 p4 p5 p6 p7 p8 : (⟨2, ![n, 1]⟩ : Shape).Idx → α)
  (h : Shape.Concatenates (([⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] : List ((s : Shape) × (s.Idx → α))).map (·.1))
      ⟨2, ![n, 9]⟩ 1)
  (r : Fin n)

theorem stack9_col0 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (0 : Fin 9)) = p0 (ix2 r (0 : Fin 1)) :=
  stack9_apply p0 p1 p2 p3 p4 p5 p6 p7 p8 h r 0
theorem stack9_col1 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (1 : Fin 9)) = p1 (ix2 r (0 : Fin 1)) :=
  stack9_apply p0 p1 p2 p3 p4 p5 p6 p7 p8 h r 1
theorem stack9_col2 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (2 : Fin 9)) = p2 (ix2 r (0 : Fin 1)) :=
  stack9_apply p0 p1 p2 p3 p4 p5 p6 p7 p8 h r 2
theorem stack9_col3 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (3 : Fin 9)) = p3 (ix2 r (0 : Fin 1)) :=
  stack9_apply p0 p1 p2 p3 p4 p5 p6 p7 p8 h r 3
theorem stack9_col4 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (4 : Fin 9)) = p4 (ix2 r (0 : Fin 1)) :=
  stack9_apply p0 p1 p2 p3 p4 p5 p6 p7 p8 h r 4
theorem stack9_col5 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (5 : Fin 9)) = p5 (ix2 r (0 : Fin 1)) :=
  stack9_apply p0 p1 p2 p3 p4 p5 p6 p7 p8 h r 5
theorem stack9_col6 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (6 : Fin 9)) = p6 (ix2 r (0 : Fin 1)) :=
  stack9_apply p0 p1 p2 p3 p4 p5 p6 p7 p8 h r 6
theorem stack9_col7 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (7 : Fin 9)) = p7 (ix2 r (0 : Fin 1)) :=
  stack9_apply p0 p1 p2 p3 p4 p5 p6 p7 p8 h r 7
theorem stack9_col8 : concatenate ⟨2, ![n, 9]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩,
      ⟨⟨2, ![n, 1]⟩, p5⟩, ⟨⟨2, ![n, 1]⟩, p6⟩, ⟨⟨2, ![n, 1]⟩, p7⟩, ⟨⟨2, ![n, 1]⟩, p8⟩] h (ix2 r (8 : Fin 9)) = p8 (ix2 r (0 : Fin 1)) :=
  stack9_apply p0 p1 p2 p3 p4 p5 p6 p7 p8 h r 8

end Columns

/-- Column o of an [n, k] matrix as a vector: the slice [n, 1] at column offset o, cast to [n], at r is the matrix at (r, o). -/
theorem column_apply {k : Nat} (x : (⟨2, ![n, k]⟩ : Shape).Idx → α) (o : Nat) (ho : o < k)
    (hs : (⟨2, ![n, k]⟩ : Shape).Slices ![0, o] ⟨2, ![n, 1]⟩) (hc : (⟨2, ![n, 1]⟩ : Shape).ShapeCasts ⟨1, ![n]⟩) (r : Fin n) :
    shapeCast ⟨1, ![n]⟩ (extractStridedSlice ⟨2, ![n, 1]⟩ ![0, o] x hs) hc (ix1 r) = x (ix2 r (⟨o, ho⟩ : Fin k)) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, o] x hs (ix2 r (0 : Fin 1)) (ix2 r (⟨o, ho⟩ : Fin k)) ?_
    intro a
    match a with
    | ⟨0, _⟩ => show r.val = 0 + r.val; omega
    | ⟨1, _⟩ => show o = o + 0; omega

/-- A vector [n] cast to a column [n, 1]: entry (r, u) is the vector at r. -/
theorem asColumn_apply (v : (⟨1, ![n]⟩ : Shape).Idx → α) (h : (⟨1, ![n]⟩ : Shape).ShapeCasts ⟨2, ![n, 1]⟩) (r : Fin n) (u : Fin 1) :
    shapeCast ⟨2, ![n, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector [n] laid out as a column [n, 1] by a broadcast over axis 0: entry (r, u) is the vector at r. -/
theorem columnBcast_apply (v : (⟨1, ![n]⟩ : Shape).Idx → α) (h : (⟨1, ![n]⟩ : Shape).BroadcastsInDim ⟨2, ![n, 1]⟩ ![0])
    (hn : n ≠ 1) (r : Fin n) (u : Fin 1) :
    broadcastInDim ⟨2, ![n, 1]⟩ ![0] h v (ix2 r u) = v (ix1 r) := by
  refine broadcastInDim_apply ![0] h v (ix2 r u) (ix1 r) ?_
  intro a
  match a with
  | ⟨0, _⟩ => show r.val = if n = 1 then 0 else r.val; rw [if_neg hn]

end Cert.LibStackCols
-- ==== Proof.KernelBlock.lean ====
/-
  One block of the kernel, entry by entry.

  The body loads a block of 8000 quaternions x0 : [8000, 4] and scales x1 : [8000, 3], takes their seven columns as
  vectors, forms the nine scaled rotation entries M i k and from them the six upper covariance entries, and stores the
  nine columns (upper entries, mirrored below the diagonal) as one [8000, 9] block.  Every operation between the column
  reads and the final join is pointwise, so entry (r, c) of the stored block depends on row r of the two input blocks
  only: it is `upper (mat x0 x1 r) c`.
-/
import proofs.«173340_j50654844289294_1_alg».proof.Proof.Gen.KernelIdeal.Frame
import proofs.«173340_j50654844289294_1_alg».proof.Proof.CovSpec
import proofs.«173340_j50654844289294_1_alg».proof.Proof.LibStackCols
import Idealize.ShloMosaic.Lib.Pipeline.Value
import Idealize.ShloMosaic.Lib.ValueIdx

noncomputable section

namespace Cert.KernelIdeal.CovBlock

open Idealize.ShloMosaic Idealize.ShloMosaic.ValueIdx Idealize.SL.Sem
open Cert.KernelIdeal Cert.KernelIdeal.Gen Cert.CovSpec Cert.LibStackCols

/-- The whole-block rectangle starts at the origin. -/
theorem origin : (![0, 0] : Fin 2 → Nat) = fun _ => 0 := funext fun a => by fin_cases a <;> rfl

variable (x0 : Vec Ideal S8000x4 .f32) (x1 : Vec Ideal S8000x3 .f32) (r : Fin 8000)

/-! ## The seven columns, as vectors, at row r -/

theorem col_w : k0_pay2 (F := Ideal) x0 (ix1 r) = x0 (ix2 r (0 : Fin 4)) := by
  unfold k0_pay2; exact column_apply x0 0 (by omega) _ _ r
theorem col_x : k0_pay3 (F := Ideal) x0 (ix1 r) = x0 (ix2 r (1 : Fin 4)) := by
  unfold k0_pay3; exact column_apply x0 1 (by omega) _ _ r
theorem col_y : k0_pay4 (F := Ideal) x0 (ix1 r) = x0 (ix2 r (2 : Fin 4)) := by
  unfold k0_pay4; exact column_apply x0 2 (by omega) _ _ r
theorem col_z : k0_pay5 (F := Ideal) x0 (ix1 r) = x0 (ix2 r (3 : Fin 4)) := by
  unfold k0_pay5; exact column_apply x0 3 (by omega) _ _ r
theorem col_s0 : k0_pay6 (F := Ideal) x1 (ix1 r) = x1 (ix2 r (0 : Fin 3)) := by
  unfold k0_pay6; exact column_apply x1 0 (by omega) _ _ r
theorem col_s1 : k0_pay7 (F := Ideal) x1 (ix1 r) = x1 (ix2 r (1 : Fin 3)) := by
  unfold k0_pay7; exact column_apply x1 1 (by omega) _ _ r
theorem col_s2 : k0_pay8 (F := Ideal) x1 (ix1 r) = x1 (ix2 r (2 : Fin 3)) := by
  unfold k0_pay8; exact column_apply x1 2 (by omega) _ _ r

/-! ## The nine scaled rotation entries at row r -/

theorem m00 : k0_pay13 (F := Ideal) (k0_pay6 x1) (k0_pay9 x0) (ix1 r) = mat x0 x1 r 0 0 := by
  unfold k0_pay13 k0_pay9
  simp only [mulf_apply, subf_apply, addf_apply, broadcast_apply, col_w, col_x, col_y, col_z, col_s0, col_s1, col_s2]
  rfl
theorem m01 : k0_pay14 (F := Ideal) (k0_pay7 x1) (k0_pay10 x0) (ix1 r) = mat x0 x1 r 0 1 := by
  unfold k0_pay14 k0_pay10
  simp only [mulf_apply, subf_apply, addf_apply, broadcast_apply, col_w, col_x, col_y, col_z, col_s0, col_s1, col_s2]
  rfl
theorem m02 : k0_pay15 (F := Ideal) (k0_pay8 x1) (k0_pay11 x0) (ix1 r) = mat x0 x1 r 0 2 := by
  unfold k0_pay15 k0_pay11
  simp only [mulf_apply, subf_apply, addf_apply, broadcast_apply, col_w, col_x, col_y, col_z, col_s0, col_s1, col_s2]
  rfl
theorem m10 : k0_pay16 (F := Ideal) (k0_pay6 x1) (k0_pay12 x0) (ix1 r) = mat x0 x1 r 1 0 := by
  unfold k0_pay16 k0_pay12
  simp only [mulf_apply, subf_apply, addf_apply, broadcast_apply, col_w, col_x, col_y, col_z, col_s0, col_s1, col_s2]
  rfl
theorem m11 : k0_pay17 (F := Ideal) (k0_pay3 x0) (k0_pay5 x0) (k0_pay7 x1) (ix1 r) = mat x0 x1 r 1 1 := by
  unfold k0_pay17
  simp only [mulf_apply, subf_apply, addf_apply, broadcast_apply, col_w, col_x, col_y, col_z, col_s0, col_s1, col_s2]
  rfl
theorem m12 : k0_pay18 (F := Ideal) (k0_pay2 x0) (k0_pay3 x0) (k0_pay4 x0) (k0_pay5 x0) (k0_pay8 x1) (ix1 r) = mat x0 x1 r 1 2 := by
  unfold k0_pay18
  simp only [mulf_apply, subf_apply, addf_apply, broadcast_apply, col_w, col_x, col_y, col_z, col_s0, col_s1, col_s2]
  rfl
theorem m20 : k0_pay19 (F := Ideal) (k0_pay2 x0) (k0_pay3 x0) (k0_pay4 x0) (k0_pay5 x0) (k0_pay6 x1) (ix1 r) = mat x0 x1 r 2 0 := by
  unfold k0_pay19
  simp only [mulf_apply, subf_apply, addf_apply, broadcast_apply, col_w, col_x, col_y, col_z, col_s0, col_s1, col_s2]
  rfl
theorem m21 : k0_pay20 (F := Ideal) (k0_pay2 x0) (k0_pay3 x0) (k0_pay4 x0) (k0_pay5 x0) (k0_pay7 x1) (ix1 r) = mat x0 x1 r 2 1 := by
  unfold k0_pay20
  simp only [mulf_apply, subf_apply, addf_apply, broadcast_apply, col_w, col_x, col_y, col_z, col_s0, col_s1, col_s2]
  rfl
theorem m22 : k0_pay21 (F := Ideal) (k0_pay3 x0) (k0_pay4 x0) (k0_pay8 x1) (ix1 r) = mat x0 x1 r 2 2 := by
  unfold k0_pay21
  simp only [mulf_apply, subf_apply, addf_apply, broadcast_apply, col_w, col_x, col_y, col_z, col_s0, col_s1, col_s2]
  rfl

/-! ## The stored block -/

/-- Entry (r, c) of the block the body stores: column c of the nine joined columns at row r, a pointwise expression of
    the nine scaled rotation entries of row r. -/
theorem block_apply (c : Fin 9) : out0_2 (F := Ideal) x0 x1 (ix2 r c) = upper (mat x0 x1 r) c := by
  unfold out0_2
  rw [View.canon_unit_zero origin]
  simp only [View.ld_unit_zero (S := S8000x4) origin, View.ld_unit_zero (S := S8000x3) origin]
  unfold k0_pay1
  fin_cases c
  · refine (stack9_col0 _ _ _ _ _ _ _ _ _ _ r).trans ((asColumn_apply _ _ r 0).trans ?_)
    simp only [mulf_apply, addf_apply, m00, m01, m02, m10, m11, m12, m20, m21, m22]
    rfl
  · refine (stack9_col1 _ _ _ _ _ _ _ _ _ _ r).trans ((asColumn_apply _ _ r 0).trans ?_)
    simp only [mulf_apply, addf_apply, m00, m01, m02, m10, m11, m12, m20, m21, m22]
    rfl
  · refine (stack9_col2 _ _ _ _ _ _ _ _ _ _ r).trans ((asColumn_apply _ _ r 0).trans ?_)
    simp only [mulf_apply, addf_apply, m00, m01, m02, m10, m11, m12, m20, m21, m22]
    rfl
  · refine (stack9_col3 _ _ _ _ _ _ _ _ _ _ r).trans ((asColumn_apply _ _ r 0).trans ?_)
    simp only [mulf_apply, addf_apply, m00, m01, m02, m10, m11, m12, m20, m21, m22]
    rfl
  · refine (stack9_col4 _ _ _ _ _ _ _ _ _ _ r).trans ((asColumn_apply _ _ r 0).trans ?_)
    simp only [mulf_apply, addf_apply, m00, m01, m02, m10, m11, m12, m20, m21, m22]
    rfl
  · refine (stack9_col5 _ _ _ _ _ _ _ _ _ _ r).trans ((asColumn_apply _ _ r 0).trans ?_)
    simp only [mulf_apply, addf_apply, m00, m01, m02, m10, m11, m12, m20, m21, m22]
    rfl
  · refine (stack9_col6 _ _ _ _ _ _ _ _ _ _ r).trans ((asColumn_apply _ _ r 0).trans ?_)
    simp only [mulf_apply, addf_apply, m00, m01, m02, m10, m11, m12, m20, m21, m22]
    rfl
  · refine (stack9_col7 _ _ _ _ _ _ _ _ _ _ r).trans ((asColumn_apply _ _ r 0).trans ?_)
    simp only [mulf_apply, addf_apply, m00, m01, m02, m10, m11, m12, m20, m21, m22]
    rfl
  · refine (stack9_col8 _ _ _ _ _ _ _ _ _ _ r).trans ((asColumn_apply _ _ r 0).trans ?_)
    simp only [mulf_apply, addf_apply, m00, m01, m02, m10, m11, m12, m20, m21, m22]
    rfl

end Cert.KernelIdeal.CovBlock

end
-- ==== Proof.KernelArray.lean ====
/-
  From blocks to the array.

  The grid has 500 points; at point t each of the three windows sits at block (t, 0): rows 8000 t … 8000 t + 7999 of its
  array, all columns.  So row r of the block a point reads is row 8000 t + r of the argument arrays, the block it writes
  back is rows 8000 t … of `covFlat` of the argument arrays, and since row R lies in the block of point R / 8000 the
  blocks cover the [4000000, 9] array: after the region it holds `covFlat` of the two arguments.
-/
import proofs.«173340_j50654844289294_1_alg».proof.Proof.Gen.KernelIdeal.Frame
import proofs.«173340_j50654844289294_1_alg».proof.Proof.CovSpec
import proofs.«173340_j50654844289294_1_alg».proof.Proof.KernelBlock
import Idealize.ShloMosaic.Lib.Pipeline.Value
import Idealize.ShloMosaic.Lib.ValueIdx

set_option maxRecDepth 16384

noncomputable section

namespace Cert.KernelIdeal.CovArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.CovSpec Cert.KernelIdeal.CovBlock

variable (m : (ℓ : Loc nD τ sig) → Buf (Elt Ideal) ℓ)

/-- At grid point t each of the three windows sits at block (t, 0) of its array: checked point by point over the 500. -/
theorem block_at_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row r of the block at point t, as a row of the whole array. -/
def row (t : Fin cfg0.N) (r : Fin 8000) : Fin 4000000 :=
  ⟨t.val * 8000 + r.val, by have ht : t.val < 500 := lt_of_lt_of_eq t.isLt N_0; have := r.isLt; omega⟩

/-- The quaternion block at point t is rows 8000 t … of the quaternion array. -/
theorem blk_q (c : Dev nD) (t : Fin cfg0.N) (r : Fin 8000) (j : Fin 4) :
    iblk m c 0 t (ix2 r j) = V m c main_arg0 (ix2 (row t r) j) := by
  obtain ⟨e0, e1, -, -, -, -⟩ := block_at_point t
  show V m c main_arg0 (((cfg0.win 0).blk t).view.emb (ix2 r j)) = V m c main_arg0 (ix2 (row t r) j)
  refine congrArg (V m c main_arg0) (funext fun a => Fin.ext ?_)
  match a with
  | ⟨0, _⟩ => show win0_0.index t (0 : Fin 2) * 8000 + 1 * r.val = t.val * 8000 + r.val; omega
  | ⟨1, _⟩ => show win0_0.index t (1 : Fin 2) * 4 + 1 * j.val = j.val; omega

/-- The scale block at point t is rows 8000 t … of the scale array. -/
theorem blk_s (c : Dev nD) (t : Fin cfg0.N) (r : Fin 8000) (j : Fin 3) :
    iblk m c 1 t (ix2 r j) = V m c main_arg1 (ix2 (row t r) j) := by
  obtain ⟨-, -, e0, e1, -, -⟩ := block_at_point t
  show V m c main_arg1 (((cfg0.win 1).blk t).view.emb (ix2 r j)) = V m c main_arg1 (ix2 (row t r) j)
  refine congrArg (V m c main_arg1) (funext fun a => Fin.ext ?_)
  match a with
  | ⟨0, _⟩ => show win0_1.index t (0 : Fin 2) * 8000 + 1 * r.val = t.val * 8000 + r.val; omega
  | ⟨1, _⟩ => show win0_1.index t (1 : Fin 2) * 3 + 1 * j.val = j.val; omega

/-- So the scaled rotation of row r of the blocks is that of row 8000 t + r of the arrays. -/
theorem mat_blk (c : Dev nD) (t : Fin cfg0.N) (r : Fin 8000) :
    mat (n := 8000) (iblk m c 0 t) (iblk m c 1 t) r = mat (n := 4000000) (V m c main_arg0) (V m c main_arg1) (row t r) := by
  unfold mat
  rw [blk_q m c t r 0, blk_q m c t r 1, blk_q m c t r 2, blk_q m c t r 3]
  exact congrArg (scaled _ _ _ _) (funext fun k => blk_s m c t r k)

/-- The block written back at point t is rows 8000 t … 8000 t + 7999 of `covFlat` of the argument arrays: entry (r, k)
    of the body's block is `upper` of the scaled rotation of block row r, which is array row 8000 t + r. -/
theorem written_back (c : Dev nD) (t : Fin cfg0.N) :
    (dats m 0 c).flushed 2 t = ((cfg0.win 2).blk t).view.read (Elt Ideal) (covFlat (n := 4000000) (V m c main_arg0) (V m c main_arg1)) := by
  show (cfg0.win 2).cut (grid0.coords t) ((dats m 0 c).after 2 t) = _
  rw [after0_2]
  funext y
  obtain ⟨r, k, rfl⟩ : ∃ (r : Fin 8000) (k : Fin 9), y = ix2 r k := ⟨y 0, y 1, eq_ix2 y⟩
  obtain ⟨-, -, -, -, e0, e1⟩ := block_at_point t
  have hemb : ((cfg0.win 2).blk t).view.emb (ix2 r k) = ix2 (row t r) k := by
    funext a; apply Fin.ext
    match a with
    | ⟨0, _⟩ => show win0_2.index t (0 : Fin 2) * 8000 + 1 * r.val = t.val * 8000 + r.val; omega
    | ⟨1, _⟩ => show win0_2.index t (1 : Fin 2) * 9 + 1 * k.val = k.val; omega
  show out0_2 (iblk m c 0 t) (iblk m c 1 t) (ix2 r k)
    = covFlat (n := 4000000) (V m c main_arg0) (V m c main_arg1) (((cfg0.win 2).blk t).view.emb (ix2 r k))
  rw [hemb, covFlat_ix2, ← mat_blk m c t r]
  exact block_apply (iblk m c 0 t) (iblk m c 1 t) r k

/-- Membership in the block of point t, coordinate by coordinate: block index × block extent ≤ coordinate < the next. -/
theorem mem_block_iff (t : Fin cfg0.N) (i : S4000000x9.Idx) :
    i ∈ ((cfg0.win 2).blk t).view.set ↔ ∀ a : Fin 2, win0_2.index t a * S8000x9.size a ≤ (i a).val ∧ (i a).val < win0_2.index t a * S8000x9.size a + S8000x9.size a := by
  show i ∈ ((View.whole main_v0).slice (win0_2.rect t)).set ↔ _
  rw [View.set_slice_whole, Rect.mem_set_unit]
  exact Iff.rfl

/-- Row R of the array lies in the block of point R / 8000, and every column lies in the one column block. -/
theorem rows_covered (i : S4000000x9.Idx) : ∃ t : Fin cfg0.N, (cfg0.win 2).flush t = true ∧ i ∈ ((cfg0.win 2).blk t).view.set := by
  have h0 : (i 0).val < 4000000 := (i 0).isLt
  have h1 : (i 1).val < 9 := (i 1).isLt
  let t : Fin cfg0.N := ⟨(i 0).val / 8000, lt_of_lt_of_eq (by omega : (i 0).val / 8000 < 500) N_0.symm⟩
  have ht : t.val = (i 0).val / 8000 := rfl
  obtain ⟨-, -, -, -, e0, e1⟩ := block_at_point t
  refine ⟨t, flush0_2 t, ?_⟩
  rw [mem_block_iff]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 9 ≤ (i 1).val ∧ (i 1).val < win0_2.index t (1 : Fin 2) * 9 + 9; omega

/-- After the last point the [4000000, 9] array holds `covFlat` of the argument arrays: every entry was written back
    by exactly the point its row names, with the value above. -/
theorem array_after (c : Dev nD) :
    (dats m 0 c).arrAt 2 cfg0.N = covFlat (n := 4000000) (m ((c : Thread nD τ).loc main_arg0)) (m ((c : Thread nD τ).loc main_arg1)) :=
  (dats m 0 c).arrAt_eq_of_cover 2 (covFlat (n := 4000000) (V m c main_arg0) (V m c main_arg1)) (fun t _ => written_back m c t) rows_covered

end Cert.KernelIdeal.CovArray

end
-- ==== Proof.KernelRun.lean ====
/-
  The kernel's run, read.

  After the region the [4000000, 9] array holds `covFlat` of the arguments; the one host line after it splits the nine
  columns into 3 × 3, and the result array holds that reshape: `cov` of the arguments (`reshape_covFlat`, where the
  mirrored entries meet the full sum).  The two argument arrays are inputs of the region and end as they began.
-/
import proofs.«173340_j50654844289294_1_alg».proof.Proof.Gen.KernelIdeal.Frame
import proofs.«173340_j50654844289294_1_alg».proof.Proof.CovSpec
import proofs.«173340_j50654844289294_1_alg».proof.Proof.KernelArray
import Idealize.ShloMosaic.Lib.Pipeline.Value
import Idealize.ShloMosaic.Lib.StableHlo.Run

noncomputable section

namespace Cert.KernelIdeal.CovRun

open Idealize.ShloMosaic Idealize.ShloMosaic.TcCoe Idealize.ShloMosaic.ValueIdx Idealize.SL.Sem Idealize.ShloMosaic.StableHlo
open Cert.KernelIdeal Cert.KernelIdeal.Gen Cert.CovSpec Cert.KernelIdeal.CovArray

variable (m : (ℓ : Loc nD τ sig) → Buf (Elt Ideal) ℓ) (ρ : Dev nD → PrngReg)

/-- What the host line after the region leaves in the result array: the region's [4000000, 9] array split into
    [4000000, 3, 3], which is the covariance array of the arguments. -/
theorem tail_eq (c : Dev nD) :
    Pipeline.afterTail₀ cfgs (dats m) 0 (V0 m) [hostOps1] c main_v1 = cov (n := 4000000) (m ((c : Thread nD τ).loc main_arg0)) (m ((c : Thread nD τ).loc main_arg1)) := by
  have e : Pipeline.withArrays (cfgs 0).spec c (V0 m c) (fun w => (dats m 0 c).arrAt w (cfgs 0).N) (Proc.devRef .tc main_v0)
      = covFlat (n := 4000000) (m ((c : Thread nD τ).loc main_arg0)) (m ((c : Thread nD τ).loc main_arg1)) :=
    (Pipeline.withArrays_arr spec0 launch0.win.arr_inj c _ _ 2).trans (array_after m c)
  unfold Pipeline.afterTail₀
  show StableHlo.after hostOps1 _ (Proc.devRef .tc main_v1) = _
  after_results
  show shapeCast S4000000x3x3 (Pipeline.withArrays (cfgs 0).spec c (V0 m c) (fun w => (dats m 0 c).arrAt w (cfgs 0).N)
    (Proc.devRef .tc main_v0)) shapeCasts_S4000000x9_S4000000x3x3 = _
  rw [e]
  exact reshape_covFlat _ _ _

/-- The result array is neither scoped nor an array of the region, so the frame run's post speaks of it. -/
theorem result_rest : main_v1 ∈ Pipeline.restRefs sig (cfgs 0).spec :=
  Pipeline.mem_restRefs_of main_v1 rfl (fun w => by fin_cases w <;> exact (by decide))

/-- Every weakly fair execution of the idealized kernel terminates with the result array at the covariance array of the
    arguments and the arguments unchanged. -/
theorem run : θ_run defs (onTc (τ := τ) (main (F := Ideal))) ⟨m, fun _ => 0, ρ⟩ fun r => ∀ c : Dev nD,
      r.2.mem ((c.tc : Thread nD τ).loc main_v1) = cov (n := 4000000) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.CovRun

end
-- ==== Proof.RefCov.lean ====
/-
  The reference, entry by entry.

  The reference takes the four quaternion columns as vectors, forms the nine rotation entries by pointwise products,
  sums and differences with the constants 1 and 2, lays each out as a column [n, 1], joins the nine columns into [n, 9],
  splits the nine into 3 × 3, multiplies by the scales spread over the middle axis (M i k = R i k * s k) and contracts
  the last axis of M with itself, batched over the gaussians: entry (n, i, j) is Σ_k M i k * M j k.  Read at an index
  one stage at a time, that is `cov` of the two argument arrays.
-/
import proofs.«173340_j50654844289294_1_alg».proof.Proof.Gen.ReferenceIdeal.Run
import proofs.«173340_j50654844289294_1_alg».proof.Proof.Gen.ReferenceIdeal.Read
import proofs.«173340_j50654844289294_1_alg».proof.Proof.CovSpec
import proofs.«173340_j50654844289294_1_alg».proof.Proof.LibStackCols

noncomputable section

namespace Cert.ReferenceIdeal.RefCov

open Idealize.ShloMosaic Idealize.ShloMosaic.ValueIdx Idealize.SL.Sem
open Cert.ReferenceIdeal Cert.ReferenceIdeal.Gen Cert.ReferenceIdeal.Read Cert.CovSpec Cert.LibStackCols

variable (q : (⟨S4000000x4, .f32⟩ : BufTy).Contents (Elt Ideal)) (s : (⟨S4000000x3, .f32⟩ : BufTy).Contents (Elt Ideal))
  (n : Fin 4000000)

/-! ## The four quaternion columns at gaussian n -/

theorem col_w : val_main_v1 (F := Ideal) q (ix1 n) = q (ix2 n (0 : Fin 4)) := by
  unfold val_main_v1 val_main_v0; exact column_apply q 0 (by omega) _ _ n
theorem col_x : val_main_v3 (F := Ideal) q (ix1 n) = q (ix2 n (1 : Fin 4)) := by
  unfold val_main_v3 val_main_v2; exact column_apply q 1 (by omega) _ _ n
theorem col_y : val_main_v5 (F := Ideal) q (ix1 n) = q (ix2 n (2 : Fin 4)) := by
  unfold val_main_v5 val_main_v4; exact column_apply q 2 (by omega) _ _ n
theorem col_z : val_main_v7 (F := Ideal) q (ix1 n) = q (ix2 n (3 : Fin 4)) := by
  unfold val_main_v7 val_main_v6; exact column_apply q 3 (by omega) _ _ n

/-! ## The nine rotation entries at gaussian n -/

/-- Every stage between the column reads and the nine rotation entries is a pointwise product, sum or difference of
    earlier stages, or the constant 1 or 2 spread over the gaussians: read them all at one index, down to the columns. -/
macro "read_pointwise" : tactic => `(tactic| simp only [val_main_cst_apply, val_main_v8_apply, val_main_v9_apply, val_main_v10_apply, val_main_cst_0_apply, val_main_v11_apply, val_main_v12_apply, val_main_cst_1_apply, val_main_v13_apply, val_main_v14_apply, val_main_v15_apply, val_main_v16_apply, val_main_cst_2_apply, val_main_v17_apply, val_main_v18_apply, val_main_v19_apply, val_main_cst_3_apply, val_main_v20_apply, val_main_v21_apply, val_main_v22_apply, val_main_v23_apply, val_main_cst_4_apply, val_main_v24_apply, val_main_v25_apply, val_main_v26_apply, val_main_cst_5_apply, val_main_v27_apply, val_main_v28_apply, val_main_v29_apply, val_main_v30_apply, val_main_cst_6_apply, val_main_v31_apply, val_main_v32_apply, val_main_v33_apply, val_main_cst_7_apply, val_main_v34_apply, val_main_v35_apply, val_main_v36_apply, val_main_v37_apply, val_main_cst_8_apply, val_main_v38_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_cst_12_apply, val_main_v50_apply, val_main_v51_apply, val_main_v52_apply, val_main_v53_apply, val_main_cst_13_apply, val_main_v54_apply, val_main_v55_apply, val_main_v56_apply, val_main_cst_14_apply, val_main_v57_apply, val_main_v58_apply, val_main_v59_apply, val_main_v60_apply, val_main_cst_15_apply, val_main_v61_apply, val_main_v62_apply, val_main_v63_apply, val_main_cst_16_apply, val_main_v64_apply, val_main_v65_apply, val_main_v66_apply, val_main_v67_apply, val_main_cst_17_apply, val_main_v68_apply, val_main_v69_apply, val_main_v70_apply, val_main_cst_18_apply, val_main_v71_apply, val_main_v72_apply, val_main_cst_19_apply, val_main_v73_apply, val_main_v74_apply, val_main_v75_apply, val_main_v76_apply,
  col_w, col_x, col_y, col_z])

theorem rot00 : val_main_v16 (F := Ideal) q (ix1 n) = rot (q (ix2 n (0 : Fin 4))) (q (ix2 n (1 : Fin 4))) (q (ix2 n (2 : Fin 4))) (q (ix2 n (3 : Fin 4))) 0 0 := by
  read_pointwise; rfl
theorem rot01 : val_main_v23 (F := Ideal) q (ix1 n) = rot (q (ix2 n (0 : Fin 4))) (q (ix2 n (1 : Fin 4))) (q (ix2 n (2 : Fin 4))) (q (ix2 n (3 : Fin 4))) 0 1 := by
  read_pointwise; rfl
theorem rot02 : val_main_v30 (F := Ideal) q (ix1 n) = rot (q (ix2 n (0 : Fin 4))) (q (ix2 n (1 : Fin 4))) (q (ix2 n (2 : Fin 4))) (q (ix2 n (3 : Fin 4))) 0 2 := by
  read_pointwise; rfl
theorem rot10 : val_main_v37 (F := Ideal) q (ix1 n) = rot (q (ix2 n (0 : Fin 4))) (q (ix2 n (1 : Fin 4))) (q (ix2 n (2 : Fin 4))) (q (ix2 n (3 : Fin 4))) 1 0 := by
  read_pointwise; rfl
theorem rot11 : val_main_v46 (F := Ideal) q (ix1 n) = rot (q (ix2 n (0 : Fin 4))) (q (ix2 n (1 : Fin 4))) (q (ix2 n (2 : Fin 4))) (q (ix2 n (3 : Fin 4))) 1 1 := by
  read_pointwise; rfl
theorem rot12 : val_main_v53 (F := Ideal) q (ix1 n) = rot (q (ix2 n (0 : Fin 4))) (q (ix2 n (1 : Fin 4))) (q (ix2 n (2 : Fin 4))) (q (ix2 n (3 : Fin 4))) 1 2 := by
  read_pointwise; rfl
theorem rot20 : val_main_v60 (F := Ideal) q (ix1 n) = rot (q (ix2 n (0 : Fin 4))) (q (ix2 n (1 : Fin 4))) (q (ix2 n (2 : Fin 4))) (q (ix2 n (3 : Fin 4))) 2 0 := by
  read_pointwise; rfl
theorem rot21 : val_main_v67 (F := Ideal) q (ix1 n) = rot (q (ix2 n (0 : Fin 4))) (q (ix2 n (1 : Fin 4))) (q (ix2 n (2 : Fin 4))) (q (ix2 n (3 : Fin 4))) 2 1 := by
  read_pointwise; rfl
theorem rot22 : val_main_v76 (F := Ideal) q (ix1 n) = rot (q (ix2 n (0 : Fin 4))) (q (ix2 n (1 : Fin 4))) (q (ix2 n (2 : Fin 4))) (q (ix2 n (3 : Fin 4))) 2 2 := by
  read_pointwise; rfl

/-! ## The rotation as an [n, 3, 3] array -/

/-- Entry (n, i, k) of the reshaped join is column 3 i + k of row n of the [n, 9] join, which is the (i, k) rotation
    entry laid out as a column. -/
theorem rot_apply (i k : Fin 3) : val_main_v87 (F := Ideal) q (ix3 n i k) = rot (q (ix2 n (0 : Fin 4))) (q (ix2 n (1 : Fin 4))) (q (ix2 n (2 : Fin 4))) (q (ix2 n (3 : Fin 4))) i k := by
  unfold val_main_v87
  refine (shapeCast_apply (val_main_v86 (F := Ideal) q) shapeCasts_S4000000x9_S4000000x3x3 (ix3 n i k) (ix2 n (cell i k)) ?_).trans ?_
  · rw [Shape.rowMajor_val_two, Shape.rowMajor_val_three]
    show n.val * 9 + (3 * i.val + k.val) = (n.val * 3 + i.val) * 3 + k.val
    omega
  · unfold val_main_v86
    fin_cases i <;> fin_cases k
    · exact (stack9_col0 _ _ _ _ _ _ _ _ _ _ n).trans ((columnBcast_apply (val_main_v16 (F := Ideal) q) _ (by decide) n 0).trans (rot00 q n))
    · exact (stack9_col1 _ _ _ _ _ _ _ _ _ _ n).trans ((columnBcast_apply (val_main_v23 (F := Ideal) q) _ (by decide) n 0).trans (rot01 q n))
    · exact (stack9_col2 _ _ _ _ _ _ _ _ _ _ n).trans ((columnBcast_apply (val_main_v30 (F := Ideal) q) _ (by decide) n 0).trans (rot02 q n))
    · exact (stack9_col3 _ _ _ _ _ _ _ _ _ _ n).trans ((columnBcast_apply (val_main_v37 (F := Ideal) q) _ (by decide) n 0).trans (rot10 q n))
    · exact (stack9_col4 _ _ _ _ _ _ _ _ _ _ n).trans ((columnBcast_apply (val_main_v46 (F := Ideal) q) _ (by decide) n 0).trans (rot11 q n))
    · exact (stack9_col5 _ _ _ _ _ _ _ _ _ _ n).trans ((columnBcast_apply (val_main_v53 (F := Ideal) q) _ (by decide) n 0).trans (rot12 q n))
    · exact (stack9_col6 _ _ _ _ _ _ _ _ _ _ n).trans ((columnBcast_apply (val_main_v60 (F := Ideal) q) _ (by decide) n 0).trans (rot20 q n))
    · exact (stack9_col7 _ _ _ _ _ _ _ _ _ _ n).trans ((columnBcast_apply (val_main_v67 (F := Ideal) q) _ (by decide) n 0).trans (rot21 q n))
    · exact (stack9_col8 _ _ _ _ _ _ _ _ _ _ n).trans ((columnBcast_apply (val_main_v76 (F := Ideal) q) _ (by decide) n 0).trans (rot22 q n))

/-! ## The scaled rotation and its contraction -/

/-- The scales spread over the middle axis: entry (n, i, k) is s (n, k). -/
theorem scale_apply (i k : Fin 3) : val_main_v89 (F := Ideal) s (ix3 n i k) = s (ix2 n k) := by
  rw [val_main_v89_apply, val_main_v88_apply]
  exact congrArg s (funext fun a => by match a with | ⟨0, _⟩ => rfl | ⟨1, _⟩ => rfl)

theorem mat_apply (i k : Fin 3) : val_main_v90 (F := Ideal) q s (ix3 n i k) = mat q s n i k := by
  rw [val_main_v90_apply, rot_apply, scale_apply]
  rfl

/-- The reference's result is the covariance array of its two arguments. -/
theorem result_eq : val_main_v91 (F := Ideal) q s = cov q s := by
  funext j
  obtain ⟨n, i, k, rfl⟩ : ∃ (n : Fin 4000000) (i k : Fin 3), j = ix3 n i k := ⟨j 0, j 1, j 2, eq_ix3 j⟩
  rw [val_main_v91_apply, cov_ix3]
  unfold gram
  refine Finset.sum_congr rfl fun t _ => ?_
  have el : lidx_main_v91 (ix3 n i k) t = ix3 n i t :=
    funext fun a => by match a with | ⟨0, _⟩ => rfl | ⟨1, _⟩ => rfl | ⟨2, _⟩ => rfl
  have er : ridx_main_v91 (ix3 n i k) t = ix3 n k t :=
    funext fun a => by match a with | ⟨0, _⟩ => rfl | ⟨1, _⟩ => rfl | ⟨2, _⟩ => rfl
  rw [el, er, mat_apply, mat_apply]

end Cert.ReferenceIdeal.RefCov

end
-- ==== Proof.lean ====
/-
  A gaussian's covariance from its quaternion and scales: M = R(q) · diag(s), covariance = M · Mᵀ, for 4,000,000
  gaussians, on the extended reals.

  The kernel walks the gaussians in 500 blocks of 8000.  For each it computes the nine entries of M by pointwise
  arithmetic on the seven columns (four of the quaternion, three of the scales), then the six entries of M · Mᵀ on and
  above the diagonal, each as (M i 0 * M j 0 + M i 1 * M j 1) + M i 2 * M j 2, writes nine columns (the three below the
  diagonal copied from their mirror images) and, after all blocks, splits the nine columns into 3 × 3.  The reference
  builds the rotation entries by the same arithmetic, stacks them into a 3 × 3 matrix per gaussian, scales its columns
  and contracts M with itself: entry (i, j) = Σ_k M i k * M j k.

  The rotation entries and the scaling are the same expressions on both sides, word for word, with the same f32 words
  for 1 and 2.  A sum over three indices is the kernel's grouping, and an entry below the diagonal equals its mirror
  image because each product commutes (`Cert.CovSpec.upper_cell`).  Nothing is cancelled or distributed, so the
  equality holds for every extended real and the precondition (finite inputs) is never opened.

  Modules: CovSpec (the specification and the one law), LibStackCols (columns of a matrix read at an entry),
  KernelBlock (one block of the kernel at an entry), KernelArray (the blocks cover the array), KernelRun (the host line
  after the region, and the run), RefCov (the reference at an entry).  The three frames are the generated ones; the
  idealization rewrote nothing, so it preserves the kernel trivially.
-/
import proofs.«173340_j50654844289294_1_alg».proof.Defs
import proofs.«173340_j50654844289294_1_alg».proof.Proof.Gen.Kernel
import proofs.«173340_j50654844289294_1_alg».proof.Proof.Gen.Kernel.Skeleton
import proofs.«173340_j50654844289294_1_alg».proof.Proof.Gen.Kernel.Launch
import proofs.«173340_j50654844289294_1_alg».proof.Proof.Gen.Kernel.Points
import proofs.«173340_j50654844289294_1_alg».proof.Proof.Gen.Kernel.Frame
import proofs.«173340_j50654844289294_1_alg».proof.Proof.Gen.KernelIdeal
import proofs.«173340_j50654844289294_1_alg».proof.Proof.Gen.KernelIdeal.Skeleton
import proofs.«173340_j50654844289294_1_alg».proof.Proof.Gen.KernelIdeal.Launch
import proofs.«173340_j50654844289294_1_alg».proof.Proof.Gen.KernelIdeal.Points
import proofs.«173340_j50654844289294_1_alg».proof.Proof.Gen.KernelIdeal.Frame
import proofs.«173340_j50654844289294_1_alg».proof.Proof.Gen.ReferenceIdeal
import proofs.«173340_j50654844289294_1_alg».proof.Proof.Gen.ReferenceIdeal.Run
import proofs.«173340_j50654844289294_1_alg».proof.Proof.Gen.ReferenceIdeal.Read
import proofs.«173340_j50654844289294_1_alg».proof.Proof.Gen.Pre_finite_inputs
import proofs.«173340_j50654844289294_1_alg».proof.Proof.CovSpec
import proofs.«173340_j50654844289294_1_alg».proof.Proof.KernelRun
import proofs.«173340_j50654844289294_1_alg».proof.Proof.RefCov
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the covariance array of the arguments: the kernel by its blocks and the
    reshape after them, the reference stage by stage. -/
theorem algebraic : Cert.algebraic_KernelIdeal_ReferenceIdeal := by
  intro m ρ m' ρ' _ hagree
  refine ⟨fun c => Cert.CovSpec.cov (n := 4000000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.CovRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v91_eq, Cert.ReferenceIdeal.RefCov.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
